-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S40x128 : Shape := ⟨2, ![40, 128]⟩
abbrev S40 : Shape := ⟨1, ![40]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x128 .f32) (main_arg1 : FVec F S40x128 .f32) (main_arg2 : FVec F S40 .f32) (main_arg3 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S40x128 .f32 := Host.absf main_arg1
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x128 : Shape := ⟨2, ![100000, 128]⟩
abbrev S40x128 : Shape := ⟨2, ![40, 128]⟩
abbrev S40 : Shape := ⟨1, ![40]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S128x40 : Shape := ⟨2, ![128, 40]⟩
abbrev S1x40 : Shape := ⟨2, ![1, 40]⟩
abbrev S100000x40 : Shape := ⟨2, ![100000, 40]⟩
abbrev S5000x128 : Shape := ⟨2, ![5000, 128]⟩
abbrev S5000x40 : Shape := ⟨2, ![5000, 40]⟩
abbrev S5000 : Shape := ⟨1, ![5000]⟩
abbrev S5000x1 : Shape := ⟨2, ![5000, 1]⟩

abbrev nBuf : Space → Nat
  | .hbm => 78
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S2x600000, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S700000, .i32⟩
  | .hbm, ⟨26, _⟩ => ⟨S700000, .i1⟩
  | .hbm, ⟨27, _⟩ => ⟨S_, .i32⟩
  | .hbm, ⟨28, _⟩ => ⟨S700000, .i32⟩
  | .hbm, ⟨29, _⟩ => ⟨S700000, .i32⟩
  | .hbm, ⟨30, _⟩ => ⟨S700000, .i32⟩
  | .hbm, ⟨31, _⟩ => ⟨S700000x1, .i32⟩
  | .hbm, ⟨32, _⟩ => ⟨S700000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S700000, .f32⟩
  | .hbm, ⟨43, _⟩ => ⟨S700000x1, .f32⟩
  | .hbm, ⟨44, _⟩ => ⟨S_, .i32⟩
  | .hbm, ⟨45, _⟩ => ⟨S700000, .i32⟩
  | .hbm, ⟨46, _⟩ => ⟨S700000, .i1⟩
  | .hbm, ⟨47, _⟩ => ⟨S_, .i32⟩
  | .hbm, ⟨48, _⟩ => ⟨S700000, .i32⟩
  | .hbm, ⟨49, _⟩ => ⟨S700000, .i32⟩
  | .hbm, ⟨50, _⟩ => ⟨S700000, .i32⟩
  | .hbm, ⟨51, _⟩ => ⟨S700000x1, .i32⟩
  | .hbm, ⟨52, _⟩ => ⟨S700000x128, .f32⟩
  | .hbm, ⟨53, _⟩ => ⟨S700000x128, .f32⟩
  | .hbm, ⟨54, _⟩ => ⟨S700000x128, .f32⟩
  | .hbm, ⟨55, _⟩ => ⟨S_, .f32⟩
  | .hbm, ⟨56, _⟩ => ⟨S100000x128, .f32⟩
  | .hbm, ⟨57, _⟩ => ⟨S700000x1, .i32⟩
  | .hbm, ⟨58, _⟩ => ⟨S100000x128, .f32⟩
  | .hbm, ⟨59, _⟩ => ⟨S700000x1, .f32⟩
  | .hbm, ⟨60, _⟩ => ⟨S_, .i32⟩
  | .hbm, ⟨61, _⟩ => ⟨S700000, .i32⟩
  | .hbm, ⟨62, _⟩ => ⟨S700000, .i1⟩
  | .hbm, ⟨63, _⟩ => ⟨S_, .i32⟩
  | .hbm, ⟨64, _⟩ => ⟨S700000, .i32⟩
  | .hbm, ⟨65, _⟩ => ⟨S700000, .i32⟩
  | .hbm, ⟨66, _⟩ => ⟨S700000, .i32⟩
  | .hbm, ⟨67, _⟩ => ⟨S700000x1, .i32⟩
  | .hbm, ⟨68, _⟩ => ⟨S700000x128, .f32⟩
  | .hbm, ⟨69, _⟩ => ⟨S700000x128, .f32⟩
  | .hbm, ⟨70, _⟩ => ⟨S700000x128, .f32⟩
  | .hbm, ⟨71, _⟩ => ⟨S_, .f32⟩
  | .hbm, ⟨72, _⟩ => ⟨S100000x128, .f32⟩
  | .hbm, ⟨73, _⟩ => ⟨S700000x1, .i32⟩
  | .hbm, ⟨74, _⟩ => ⟨S100000x128, .f32⟩
  | .hbm, ⟨75, _⟩ => ⟨S128x40, .f32⟩
  | .hbm, ⟨76, _⟩ => ⟨S1x40, .f32⟩
  | .hbm, ⟨77, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x40, .f32⟩
  | .local _ .vmem, ⟨3, _⟩ => ⟨S1x40, .f32⟩
  | .local _ .vmem, ⟨4, _⟩ => ⟨S5000x40, .f32⟩
  | .local _ .vmem, ⟨5, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  transposes_S40x128_S128x40_1_0 : S40x128.Transposes [1, 0] S128x40
  shapeCasts_S40_S1x40 : S40.ShapeCasts S1x40
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x40.size a ≤ S128x40.size a
  hwx0_1 : ∀ i : grid0.Coords, EltTy.bits .f32 = 32 ∨ (Rect.block (s := S128x40) S128x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x40.size a ≤ S100000x40.size a
  hwx0_3 : ∀ i : grid0.Coords, EltTy.bits .f32 = 32 ∨ (Rect.block (s := S100000x40) S5000x40.size (cc0_transform_3 i) (hinb0_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v55) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S128x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S5000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S40x128 : Shape := ⟨2, ![40, 128]⟩
abbrev S40 : Shape := ⟨1, ![40]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S128x40 : Shape := ⟨2, ![128, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S40x128, .f32⟩
  | .hbm, ⟨2, _⟩ => ⟨S40, .f32⟩
  | .hbm, ⟨3, _⟩ => ⟨S2x600000, .i32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S700000, .i32⟩
  | .hbm, ⟨26, _⟩ => ⟨S700000, .i1⟩
  | .hbm, ⟨27, _⟩ => ⟨S_, .i32⟩
  | .hbm, ⟨28, _⟩ => ⟨S700000, .i32⟩
  | .hbm, ⟨29, _⟩ => ⟨S700000, .i32⟩
  | .hbm, ⟨30, _⟩ => ⟨S700000, .i32⟩
  | .hbm, ⟨31, _⟩ => ⟨S700000x1, .i32⟩
  | .hbm, ⟨32, _⟩ => ⟨S700000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S700000, .f32⟩
  | .hbm, ⟨43, _⟩ => ⟨S700000x1, .f32⟩
  | .hbm, ⟨44, _⟩ => ⟨S_, .i32⟩
  | .hbm, ⟨45, _⟩ => ⟨S700000, .i32⟩
  | .hbm, ⟨46, _⟩ => ⟨S700000, .i1⟩
  | .hbm, ⟨47, _⟩ => ⟨S_, .i32⟩
  | .hbm, ⟨48, _⟩ => ⟨S700000, .i32⟩
  | .hbm, ⟨49, _⟩ => ⟨S700000, .i32⟩
  | .hbm, ⟨50, _⟩ => ⟨S700000, .i32⟩
  | .hbm, ⟨51, _⟩ => ⟨S700000x1, .i32⟩
  | .hbm, ⟨52, _⟩ => ⟨S700000x128, .f32⟩
  | .hbm, ⟨53, _⟩ => ⟨S700000x128, .f32⟩
  | .hbm, ⟨54, _⟩ => ⟨S700000x128, .f32⟩
  | .hbm, ⟨55, _⟩ => ⟨S_, .f32⟩
  | .hbm, ⟨56, _⟩ => ⟨S100000x128, .f32⟩
  | .hbm, ⟨57, _⟩ => ⟨S700000x1, .i32⟩
  | .hbm, ⟨58, _⟩ => ⟨S100000x128, .f32⟩
  | .hbm, ⟨59, _⟩ => ⟨S700000x1, .f32⟩
  | .hbm, ⟨60, _⟩ => ⟨S_, .i32⟩
  | .hbm, ⟨61, _⟩ => ⟨S700000, .i32⟩
  | .hbm, ⟨62, _⟩ => ⟨S700000, .i1⟩
  | .hbm, ⟨63, _⟩ => ⟨S_, .i32⟩
  | .hbm, ⟨64, _⟩ => ⟨S700000, .i32⟩
  | .hbm, ⟨65, _⟩ => ⟨S700000, .i32⟩
  | .hbm, ⟨66, _⟩ => ⟨S700000, .i32⟩
  | .hbm, ⟨67, _⟩ => ⟨S700000x1, .i32⟩
  | .hbm, ⟨68, _⟩ => ⟨S700000x128, .f32⟩
  | .hbm, ⟨69, _⟩ => ⟨S700000x128, .f32⟩
  | .hbm, ⟨70, _⟩ => ⟨S700000x128, .f32⟩
  | .hbm, ⟨71, _⟩ => ⟨S_, .f32⟩
  | .hbm, ⟨72, _⟩ => ⟨S100000x128, .f32⟩
  | .hbm, ⟨73, _⟩ => ⟨S700000x1, .i32⟩
  | .hbm, ⟨74, _⟩ => ⟨S100000x128, .f32⟩
  | .hbm, ⟨75, _⟩ => ⟨S128x40, .f32⟩
  | .hbm, ⟨76, _⟩ => ⟨S100000x40, .f32⟩
  | .hbm, ⟨77, _⟩ => ⟨S1x40, .f32⟩
  | .hbm, ⟨78, _⟩ => ⟨S100000x40, .f32⟩
  | .hbm, ⟨79, _⟩ => ⟨S100000x40, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S100000x1, .f32⟩
  | .hbm, ⟨92, _⟩ => ⟨S100000x1, .f32⟩
  | .hbm, ⟨93, _⟩ => ⟨S100000x40, .f32⟩
  | .hbm, ⟨94, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_9 : Ref sig .tc := ⟨.hbm, 60, rfl⟩
abbrev main_v44 : Ref sig .tc := ⟨.hbm, 61, rfl⟩
abbrev main_v45 : Ref sig .tc := ⟨.hbm, 62, rfl⟩
abbrev main_c_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x40_S100000x40_1_0_0_1_n_n_wf : DotDims.WF S100000x128 S128x40 S100000x40 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.LibFold.lean ====
/-
  Two general facts for reading what a line of host operations leaves in a buffer.

  * `after_append`: running two lines of operations one after the other is running their concatenation —
    so a long line can be cut where its mathematics changes and each part read by itself.
  * `concat2`: a `stablehlo.concatenate` of two operands along an axis as a function of the two operands:
    `concat2 t ax s₁ s₂ h a b` is, by definition, the concatenation of the list [(s₁, a), (s₂, b)]. What a line of
    operations containing such a concatenate leaves in a buffer is then a term in which the concatenate's two
    operands appear as arguments, like those of every other operation.
-/
import Idealize.ShloMosaic.Lib.StableHlo.Run

noncomputable section

namespace Cert.LibFold

open Idealize.ShloMosaic Idealize.ShloMosaic.StableHlo

/-- The concatenation of two vectors `a`, `b` of shapes `s₁`, `s₂` along axis `ax` of the result shape `t`. -/
def concat2 {α : Type} (t : Shape) (ax : Fin t.rank) (s₁ s₂ : Shape) (h : Shape.Concatenates [s₁, s₂] t ax)
    (a : s₁.Idx → α) (b : s₂.Idx → α) : t.Idx → α :=
  concatenate t ax [⟨s₁, a⟩, ⟨s₂, b⟩] h

/-- Two lines of host operations run in order are their concatenation run as one line. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibFold

end
-- ==== Proof.RefRunH.lean ====
/-
  The reference's run, with its line of host operations cut where the mathematics changes.

  The reference program is 91 host operations in a row. The first 71 are the propagation: from the edge list
  and the node features they build the source and target node lists (each the edge list's row followed by the
  self loops 0 … 99999), the degrees, the symmetric normalisation, and two hops of gather · scale · scatter-add;
  the last of them writes the propagated feature array. The other 20 transpose the weights, multiply, add the
  bias and take the log-softmax of each row. Every weakly fair execution runs them in order, so the result
  buffer ends at what the 20 leave when started from what the 71 leave; the arguments are never written.
-/
import proofs.«123037_j63677185130716_1_alg».proof.Proof.Gen.ReferenceIdeal
import proofs.«123037_j63677185130716_1_alg».proof.Proof.LibFold
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibFold

variable {F : FTy → Type} [FloatOps F]

/-- The propagation: @main's first 71 operations, in order, ending with the second hop's scatter-add. -/
abbrev opsPre : List (HloOp τ sig (Elt F)) :=
  [ nullary main_v0 (iotaInDim S100000 32 0),
    unary main_arg3 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg3 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S100000, .f32⟩) main_call0_v0) (broadcastInDim S100000 ![] bcast_S_S100000),
    TRef.ternary (TRef.of (T := ⟨S100000, .i1⟩) main_v12) (TRef.of (T := ⟨S100000, .f32⟩) main_v13) (TRef.of (T := ⟨S100000, .f32⟩) main_call0_v0) (TRef.of (T := ⟨S100000, .f32⟩) main_v14) select,
    nullary main_c (constantI S_ 32 0#32),
    unary main_c main_v15 (broadcastInDim S700000 ![] bcast_S_S700000 : (⟨S_, .i32⟩ : BufTy).Contents (Elt F) → (⟨S700000, .i32⟩ : BufTy).Contents (Elt F)),
    binary main_v3 main_v15 main_v16 (cmpi .slt : (⟨S700000, .i32⟩ : BufTy).Contents (Elt F) → (⟨S700000, .i32⟩ : BufTy).Contents (Elt F) → (⟨S700000, .i1⟩ : BufTy).Contents (Elt F)),
    nullary main_c_3 (constantI S_ 32 100000#32),
    unary main_c_3 main_v17 (broadcastInDim S700000 ![] bcast_S_S700000 : (⟨S_, .i32⟩ : BufTy).Contents (Elt F) → (⟨S700000, .i32⟩ : BufTy).Contents (Elt F)),
    binary main_v3 main_v17 main_v18 (addi : (⟨S700000, .i32⟩ : BufTy).Contents (Elt F) → (⟨S700000, .i32⟩ : BufTy).Contents (Elt F) → (⟨S700000, .i32⟩ : BufTy).Contents (Elt F)),
    ternary main_v16 main_v18 main_v3 main_v19 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v19 main_v20 (broadcastInDim S700000x1 ![0] bcast_S700000_S700000x1_0 : (⟨S700000, .i32⟩ : BufTy).Contents (Elt F) → (⟨S700000x1, .i32⟩ : BufTy).Contents (Elt F)),
    binary main_v14 main_v20 main_v21 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_4 (constantI S_ 32 0#32),
    unary main_c_4 main_v22 (broadcastInDim S700000 ![] bcast_S_S700000 : (⟨S_, .i32⟩ : BufTy).Contents (Elt F) → (⟨S700000, .i32⟩ : BufTy).Contents (Elt F)),
    binary main_v6 main_v22 main_v23 (cmpi .slt : (⟨S700000, .i32⟩ : BufTy).Contents (Elt F) → (⟨S700000, .i32⟩ : BufTy).Contents (Elt F) → (⟨S700000, .i1⟩ : BufTy).Contents (Elt F)),
    nullary main_c_5 (constantI S_ 32 100000#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (addi : (⟨S700000, .i32⟩ : BufTy).Contents (Elt F) → (⟨S700000, .i32⟩ : BufTy).Contents (Elt F) → (⟨S700000, .i32⟩ : BufTy).Contents (Elt F)),
    ternary main_v23 main_v25 main_v6 main_v26 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v26 main_v27 (broadcastInDim S700000x1 ![0] bcast_S700000_S700000x1_0 : (⟨S700000, .i32⟩ : BufTy).Contents (Elt F) → (⟨S700000x1, .i32⟩ : BufTy).Contents (Elt F)),
    binary main_v14 main_v27 main_v28 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v21 main_v28 main_v29 (mulf : (⟨S700000, .f32⟩ : BufTy).Contents (Elt F) → (⟨S700000, .f32⟩ : BufTy).Contents (Elt F) → (⟨S700000, .f32⟩ : BufTy).Contents (Elt F)),
    unary main_v29 main_v30 (broadcastInDim S700000x1 ![0] bcast_S700000_S700000x1_0 : (⟨S700000, .f32⟩ : BufTy).Contents (Elt F) → (⟨S700000x1, .f32⟩ : BufTy).Contents (Elt F)),
    nullary main_c_6 (constantI S_ 32 0#32),
    unary main_c_6 main_v31 (broadcastInDim S700000 ![] bcast_S_S700000 : (⟨S_, .i32⟩ : BufTy).Contents (Elt F) → (⟨S700000, .i32⟩ : BufTy).Contents (Elt F)),
    binary main_v3 main_v31 main_v32 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v33 (broadcastInDim S700000 ![] bcast_S_S700000 : (⟨S_, .i32⟩ : BufTy).Contents (Elt F) → (⟨S700000, .i32⟩ : BufTy).Contents (Elt F)),
    binary main_v3 main_v33 main_v34 (addi : (⟨S700000, .i32⟩ : BufTy).Contents (Elt F) → (⟨S700000, .i32⟩ : BufTy).Contents (Elt F) → (⟨S700000, .i32⟩ : BufTy).Contents (Elt F)),
    ternary main_v32 main_v34 main_v3 main_v35 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v35 main_v36 (broadcastInDim S700000x1 ![0] bcast_S700000_S700000x1_0 : (⟨S700000, .i32⟩ : BufTy).Contents (Elt F) → (⟨S700000x1, .i32⟩ : BufTy).Contents (Elt F)),
    binary main_arg0 main_v36 main_v37 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v30 main_v38 (broadcastInDim S700000x128 ![0, 1] bcast_S700000x1_S700000x128_0_1 : (⟨S700000x1, .f32⟩ : BufTy).Contents (Elt F) → (⟨S700000x128, .f32⟩ : BufTy).Contents (Elt F)),
    binary main_v38 main_v37 main_v39 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v40 (broadcastInDim S100000x128 ![] bcast_S_S100000x128 : (⟨S_, .f32⟩ : BufTy).Contents (Elt F) → (⟨S100000x128, .f32⟩ : BufTy).Contents (Elt F)),
    unary main_v6 main_v41 (broadcastInDim S700000x1 ![0] bcast_S700000_S700000x1_0 : (⟨S700000, .i32⟩ : BufTy).Contents (Elt F) → (⟨S700000x1, .i32⟩ : BufTy).Contents (Elt F)),
    ternary main_v40 main_v41 main_v39 main_v42 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_v29 main_v43 (broadcastInDim S700000x1 ![0] bcast_S700000_S700000x1_0 : (⟨S700000, .f32⟩ : BufTy).Contents (Elt F) → (⟨S700000x1, .f32⟩ : BufTy).Contents (Elt F)),
    nullary main_c_9 (constantI S_ 32 0#32),
    unary main_c_9 main_v44 (broadcastInDim S700000 ![] bcast_S_S700000 : (⟨S_, .i32⟩ : BufTy).Contents (Elt F) → (⟨S700000, .i32⟩ : BufTy).Contents (Elt F)),
    binary main_v3 main_v44 main_v45 (cmpi .slt : (⟨S700000, .i32⟩ : BufTy).Contents (Elt F) → (⟨S700000, .i32⟩ : BufTy).Contents (Elt F) → (⟨S700000, .i1⟩ : BufTy).Contents (Elt F)),
    nullary main_c_10 (constantI S_ 32 100000#32),
    unary main_c_10 main_v46 (broadcastInDim S700000 ![] bcast_S_S700000 : (⟨S_, .i32⟩ : BufTy).Contents (Elt F) → (⟨S700000, .i32⟩ : BufTy).Contents (Elt F)),
    binary main_v3 main_v46 main_v47 (addi : (⟨S700000, .i32⟩ : BufTy).Contents (Elt F) → (⟨S700000, .i32⟩ : BufTy).Contents (Elt F) → (⟨S700000, .i32⟩ : BufTy).Contents (Elt F)),
    ternary main_v45 main_v47 main_v3 main_v48 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v48 main_v49 (broadcastInDim S700000x1 ![0] bcast_S700000_S700000x1_0 : (⟨S700000, .i32⟩ : BufTy).Contents (Elt F) → (⟨S700000x1, .i32⟩ : BufTy).Contents (Elt F)),
    binary main_v42 main_v49 main_v50 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v43 main_v51 (broadcastInDim S700000x128 ![0, 1] bcast_S700000x1_S700000x128_0_1 : (⟨S700000x1, .f32⟩ : BufTy).Contents (Elt F) → (⟨S700000x128, .f32⟩ : BufTy).Contents (Elt F)),
    binary main_v51 main_v50 main_v52 (mulf : (⟨S700000x128, .f32⟩ : BufTy).Contents (Elt F) → (⟨S700000x128, .f32⟩ : BufTy).Contents (Elt F) → (⟨S700000x128, .f32⟩ : BufTy).Contents (Elt F)),
    nullary main_cst_11 (constant S_ .f32 0x00000000#32),
    unary main_cst_11 main_v53 (broadcastInDim S100000x128 ![] bcast_S_S100000x128 : (⟨S_, .f32⟩ : BufTy).Contents (Elt F) → (⟨S100000x128, .f32⟩ : BufTy).Contents (Elt F)),
    unary main_v6 main_v54 (broadcastInDim S700000x1 ![0] bcast_S700000_S700000x1_0 : (⟨S700000, .i32⟩ : BufTy).Contents (Elt F) → (⟨S700000x1, .i32⟩ : BufTy).Contents (Elt F)),
    ternary main_v53 main_v54 main_v52 main_v55 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)) ]

/-- The classifier: the remaining 20 operations (a called function's operations stand in its call's place). -/
abbrev opsTail : List (HloOp τ sig (Elt F)) :=
  [ unary main_arg1 main_v56 ((transpose S128x40 [1, 0] · transposes_S40x128_S128x40_1_0) : (⟨S40x128, .f32⟩ : BufTy).Contents (Elt F) → (⟨S128x40, .f32⟩ : BufTy).Contents (Elt F)),
    binary main_v55 main_v56 main_v57 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg2 main_v58 (broadcastInDim S1x40 ![1] bcast_S40_S1x40_1 : (⟨S40, .f32⟩ : BufTy).Contents (Elt F) → (⟨S1x40, .f32⟩ : BufTy).Contents (Elt F)),
    unary main_v58 main_v59 (broadcastInDim S100000x40 ![0, 1] bcast_S1x40_S100000x40_0_1 : (⟨S1x40, .f32⟩ : BufTy).Contents (Elt F) → (⟨S100000x40, .f32⟩ : BufTy).Contents (Elt F)),
    binary main_v57 main_v59 main_v60 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v60) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v60) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v61) subf ]

set_option maxRecDepth 8192 in
set_option maxHeartbeats 4000000 in
theorem main_eq (c : Dev nD) : main (F := F) c = seq (opsPre ++ opsTail) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsPre_sub : (opsPre : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩
set_option maxRecDepth 8192 in
theorem opsTail_sub : (opsTail : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (opsPre ++ opsTail : List (HloOp τ sig (Elt F))).Forall fun op => op.bufs ⊆ tcRefs τ sig :=
  List.forall_append.mpr ⟨opsPre_sub, opsTail_sub⟩

/-- No operation allocates a buffer of its own. -/
theorem opsPre_fresh : ∀ op ∈ (opsPre : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h

/-- No operation writes an argument array. -/
theorem kept (m : (ℓ : Loc nD τ sig) → Buf (Elt F) ℓ) (c : Dev nD) (a : Ref sig .tc)
    (ha : a = main_arg0 ∨ a = main_arg1 ∨ a = main_arg2 ∨ a = main_arg3) :
    after (opsPre ++ opsTail) (launchContents m c) (Proc.devRef .tc a) = launchContents m c (Proc.devRef .tc a) := by
  refine after_of_forall_not_mem (b := Proc.devRef .tc a) _ _ (List.forall_iff_forall_mem.mp ?_)
  rcases ha with rfl | rfl | rfl | rfl <;>
  · simp only [opsPre, opsTail, List.cons_append, List.nil_append, List.Forall, nullary_writes, unary_writes, binary_writes,
      ternary_writes, quaternary_writes, reshape_writes, binaryIndexed_writes, TRef.nullary, TRef.unary, TRef.binary, TRef.ternary,
      Finset.mem_singleton]
    repeat' apply And.intro
    all_goals exact devRef_ne_of_ne (by decide)

/-- Every weakly fair execution of the reference terminates; the result buffer ends at what the classifier's
    operations leave when started from what the propagation's operations leave, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = after opsTail (after opsPre (launchContents m c)) (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v61).trans (congrFun (after_append opsPre opsTail _) _),
      (h c main_arg0).trans (kept m c main_arg0 (.inl rfl)),
      (h c main_arg1).trans (kept m c main_arg1 (.inr (.inl rfl))),
      (h c main_arg2).trans (kept m c main_arg2 (.inr (.inr (.inl rfl)))),
      (h c main_arg3).trans (kept m c main_arg3 (.inr (.inr (.inr rfl))))⟩)
    (run_seq scopedRefs_eq scopedSems_eq defs main (fun _ => opsPre ++ opsTail) main_eq (fun _ => ops_sub) m ρ
      (fun _ op h => (List.mem_append.mp h).elim (opsPre_fresh op) (opsTail_fresh op)))

end Cert.ReferenceIdeal.HandRun

end
-- ==== Proof.LibRows.lean ====
/-
  Rows of a two-axis array read at an index, at the ideal values (floats as extended reals): general
  lemmas, none of them about a particular program.

  * Keepdims columns. A vector [a] viewed as a column [a, 1] reads, at (p, 0), entry p; a column [a, 1]
    spread along the rows of [a, b] reads, at (p, c), the column's entry (p, 0) — as a kernel's
    `vector.shape_cast` / `vector.broadcast` and as the host's `broadcast_in_dim`; likewise a vector [b]
    as one row [1, b], one row spread down [a, b], and a scalar spread over [a].
  * One-axis reductions over the LAST axis of [a, b]. The index that reduces to row p with coordinate k
    put back is (p, k); so a row maximum taken from −∞ is the fold of `max` over the row's b entries and a
    row sum is the sum over them — for a kernel's `vector.multi_reduction` and for the host's
    `stablehlo.reduce` alike.
  * A rows-by-columns product. For dimension numbers that contract the left operand's last axis with the
    right operand's first one, a `tpu.matmul` into a zero accumulator and the host's `dot_general` are, at
    (p, c), the sum over k of lhs (p, k) · rhs (k, c).
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibRows

open Idealize.ShloMosaic Idealize.ShloMosaic.ValueIdx

/-! ## −∞ and a row's maximum -/

/-- The f32 word of −∞, as an extended real. -/
abbrev negInf : EReal := Ideal.ofBits .f32 0xFF800000#32

/-- −∞ is neutral for the maximum. -/
theorem max_negInf (y : EReal) : max negInf y = y := by
  show max (Ideal.ofBits .f32 0xFF800000#32) y = y
  simp [Ideal.ofBits, Ideal.ieee]

/-- The maximum of n extended reals, taken from −∞. -/
def rowMax {n : Nat} (z : Fin n → EReal) : EReal := (Finset.univ : Finset (Fin n)).fold max negInf z

/-! ## Keepdims columns and rows -/

section Layout
variable {α : Type}

/-- A vector [a] cast to a column [a, 1] reads, at (p, u), entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast along the rows of [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: `broadcast_in_dim` of [a] to [a, 1] along axis 0. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's form of the second: `broadcast_in_dim` of [a, 1] to [a, b] along both axes. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A vector [b] as one row [1, b] (`broadcast_in_dim` along axis 1) reads, at (u, c), entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- One row [1, b] spread down [a, b] (`broadcast_in_dim` along both axes) reads, at (p, c), the row at (0, c). -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over [a] reads the scalar everywhere. -/
theorem broadcastInDim_scalar_a_apply {a : ℕ} (x : (⟨0, ![]⟩ : Shape).Idx → α)
    (h : (⟨0, ![]⟩ : Shape).BroadcastsInDim ⟨1, ![a]⟩ ![]) (p : Fin a) :
    broadcastInDim ⟨1, ![a]⟩ ![] h x (ix1 p) = x ix0 :=
  broadcastInDim_apply _ h x (ix1 p) ix0 fun ax => ax.elim0

end Layout

/-! ## Reductions over the last axis of [a, b] -/

/-- Row p with coordinate k put back on the reduced (last) axis is the index (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A kernel's row maximum from −∞: the fold of `max` over the row's entries. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p) = rowMax fun k : Fin b => src (ix2 p k) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max negInf f (Finset.univ : Finset (Fin b))) hf

/-- A kernel's row sum: the sum over the row's entries. -/
theorem multiReduction_add_row {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The host's row maximum from −∞ (`stablehlo.reduce` with a `maximum` body): the same fold. -/
theorem hostReduce_maximumf_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x (constant (F := Ideal) (⟨0, ![]⟩ : Shape) .f32 0xFF800000#32) h' hu (ix1 p)
      = rowMax fun k : Fin b => x (ix2 p k) := by
  rw [Host.reduce_eq_fold_single FloatOps.maximumf x _ h' h hu]
  have hf : (x ∘ h.lift (ix1 p)) = fun k : Fin b => x (ix2 p k) := funext fun k => congrArg x (lift_row h p k)
  exact congrArg (fun f => Finset.fold max negInf f (Finset.univ : Finset (Fin b))) hf

/-- The host's row sum from zero (`stablehlo.reduce` with an `add` body): the sum over the row's entries. -/
theorem hostReduceAdd_row {a b : ℕ} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x (constant (F := Ideal) (⟨0, ![]⟩ : Shape) .f32 0x00000000#32) h' hu (ix1 p)
      = ∑ k : Fin b, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (lift_row h p k)

/-! ## A rows-by-columns product -/

/-- For dimension numbers whose one contraction index runs over K, reading the left operand at (row, k) and the
    right one at (k, column) — stated as the four coordinate facts `hl0 … hr1`, which a program's own record of
    dimension numbers gives —, the sum over the contraction index at (p, c) is the sum over k of
    lhs (p, k) · rhs (k, c). -/
theorem dot_rows_sum {a K b : ℕ} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (l : (⟨2, ![a, K]⟩ : Shape).Idx → EReal) (r : (⟨2, ![K, b]⟩ : Shape).Idx → EReal) (p : Fin a) (c : Fin b) :
    ∑ q : d.contr.Idx, l (d.lhsIdx (ix2 p c) q) * r (d.rhsIdx (ix2 p c) q) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p c) ((contrEquiv1 d K hr hs).symm k) = ix2 k c := funext fun ax => Fin.ext (by
    match ax with
    | ⟨0, _⟩ => exact (hr0 _ _).trans hk
    | ⟨1, _⟩ => exact hr1 _ _)
  rw [el, er]

/-- So a `tpu.matmul` into the zero accumulator is that sum … -/
theorem matmul_zero_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (lhs : FVec Ideal ⟨2, ![a, K]⟩ φ₁) (rhs : FVec Ideal ⟨2, ![K, b]⟩ φ₂) (p : Fin a) (c : Fin b) :
    FloatOps.matmul d prec lhs rhs (constant (⟨2, ![a, b]⟩ : Shape) .f32 0x00000000#32) (ix2 p c)
      = ∑ k : Fin K, lhs (ix2 p k) * rhs (ix2 k c) :=
  (Ideal.matmul_constant_zero_apply d prec lhs rhs (ix2 p c)).trans (dot_rows_sum d hr hs hl0 hl1 hr0 hr1 lhs rhs p c)

/-- … and so is the host's `dot_general`. -/
theorem dotGeneral_rows {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ (i : (⟨2, ![a, b]⟩ : Shape).Idx) (q : d.contr.Idx), (d.lhsIdx i q 0).val = (i 0).val)
    (hl1 : ∀ (i : (⟨2, ![a, b]⟩ : Shape).Idx) (q : d.contr.Idx), (d.lhsIdx i q 1).val = (q ⟨0, by omega⟩).val)
    (hr0 : ∀ (i : (⟨2, ![a, b]⟩ : Shape).Idx) (q : d.contr.Idx), (d.rhsIdx i q 0).val = (q ⟨0, by omega⟩).val)
    (hr1 : ∀ (i : (⟨2, ![a, b]⟩ : Shape).Idx) (q : d.contr.Idx), (d.rhsIdx i q 1).val = (i 1).val)
    (prec : Option ContractPrecision) (sched : HostSchedule) (lhs : FVec Ideal ⟨2, ![a, K]⟩ φ₁) (rhs : FVec Ideal ⟨2, ![K, b]⟩ φ₂)
    (p : Fin a) (c : Fin b) :
    FloatOps.dotGeneral d prec sched lhs rhs (ix2 p c) = ∑ k : Fin K, lhs (ix2 p k) * rhs (ix2 k c) :=
  (Ideal.dotGeneral_apply d prec sched lhs rhs (ix2 p c)).trans (dot_rows_sum d hr hs hl0 hl1 hr0 hr1 lhs rhs p c)

end Cert.LibRows

end
-- ==== Proof.Spec.lean ====
/-
  The function both programs compute, written once and row by row.

  Each of the 100000 rows r of the propagated feature array h (128 features) is sent to its 40 class
  logits  z r c = (∑ k, h r k · w c k) + b c  — w the 40 × 128 weight array, b the 40 biases — and then to
  the row's log-softmax:  z r c − M r − log (∑ c', exp (z r c' − M r)),  M r the maximum of the row's 40
  logits taken from −∞. Sums, products, maxima, exp and log are the extended reals'.
  Nothing here depends on how a program tiles the rows or in which order it adds.
-/
import proofs.«123037_j63677185130716_1_alg».proof.Proof.LibRows

noncomputable section

namespace Cert.LogSoftmaxSpec

open Idealize.ShloMosaic Idealize.ShloMosaic.ValueIdx Cert.LibRows

/-- The log-softmax of one row of logits. -/
def rowLogSoftmax {n : Nat} (z : Fin n → EReal) (c : Fin n) : EReal :=
  (z c - rowMax z) - Ideal.log (∑ c' : Fin n, Ideal.exp (z c' - rowMax z))

/-- One row's logits: the row's features against each class's weights, plus the class's bias. -/
def logits {d n : Nat} (h : Fin d → EReal) (w : Fin n → Fin d → EReal) (b : Fin n → EReal) (c : Fin n) : EReal :=
  (∑ k : Fin d, h k * w c k) + b c

/-- The whole result: row r, class c of the log-softmax of the logits of h against (w, b). -/
def G (h : (⟨2, ![100000, 128]⟩ : Shape).Idx → EReal) (w : (⟨2, ![40, 128]⟩ : Shape).Idx → EReal)
    (b : (⟨1, ![40]⟩ : Shape).Idx → EReal) : (⟨2, ![100000, 40]⟩ : Shape).Idx → EReal :=
  fun i => rowLogSoftmax (logits (fun k : Fin 128 => h (ix2 (⟨(i 0).val, (i 0).isLt⟩ : Fin 100000) k))
    (fun (c : Fin 40) (k : Fin 128) => w (ix2 c k)) (fun c : Fin 40 => b (ix1 c))) (⟨(i 1).val, (i 1).isLt⟩ : Fin 40)

/-- `G` at row r, class c. -/
theorem G_ix2 (h : (⟨2, ![100000, 128]⟩ : Shape).Idx → EReal) (w : (⟨2, ![40, 128]⟩ : Shape).Idx → EReal)
    (b : (⟨1, ![40]⟩ : Shape).Idx → EReal) (r : Fin 100000) (c : Fin 40) :
    G h w b (ix2 r c) = rowLogSoftmax (logits (fun k : Fin 128 => h (ix2 r k))
      (fun (c : Fin 40) (k : Fin 128) => w (ix2 c k)) (fun c : Fin 40 => b (ix1 c))) c := rfl

end Cert.LogSoftmaxSpec

end
-- ==== Proof.RefTail.lean ====
/-
  The reference's last operations, read at a row and a class.

  After the propagation the reference holds the feature array H (100000 × 128). It multiplies H by the
  transposed weight array (a host `dot_general` contracting the 128 features), adds the bias spread over the
  rows, and applies jax's log_softmax along each row: the row maximum (a host reduce from −∞, then once more
  the maximum with −∞, which changes nothing), subtracted; the exponentials summed along the row from zero;
  the logarithm of the sum subtracted. Read at row r and class c this is the log-softmax of row r's logits,
  the function `G` of (H, w, b) — for ANY array H: the propagation itself is never opened here.
-/
import proofs.«123037_j63677185130716_1_alg».proof.Proof.Gen.ReferenceIdeal
import proofs.«123037_j63677185130716_1_alg».proof.Proof.Spec

noncomputable section

namespace Cert.ReferenceIdeal.RefValue

open Cert.ReferenceIdeal Cert.ReferenceIdeal.Gen Idealize.ShloMosaic Idealize.ShloMosaic.ValueIdx Cert.LibRows Cert.LogSoftmaxSpec

/-! ## The product's dimension numbers: rows against columns -/

theorem dot_lhs0 (i : S100000x40.Idx) (q : dot_S100000x128_S128x40_S100000x40_1_0_0_1_n_n.contr.Idx) : (dot_S100000x128_S128x40_S100000x40_1_0_0_1_n_n.lhsIdx i q 0).val = (i 0).val := by
  unfold DotDims.lhsIdx
  rw [dif_neg (show ¬(0 : Fin S100000x128.rank) ∈ dot_S100000x128_S128x40_S100000x40_1_0_0_1_n_n.lhsBatch by decide),
    dif_pos (show (0 : Fin S100000x128.rank) ∈ dot_S100000x128_S128x40_S100000x40_1_0_0_1_n_n.lhsNonContracting by decide)]
  rfl
theorem dot_lhs1 (i : S100000x40.Idx) (q : dot_S100000x128_S128x40_S100000x40_1_0_0_1_n_n.contr.Idx) : (dot_S100000x128_S128x40_S100000x40_1_0_0_1_n_n.lhsIdx i q 1).val = (q ⟨0, by decide⟩).val :=
  dot_S100000x128_S128x40_S100000x40_1_0_0_1_n_n.lhsIdx_val_of_single rfl i q
theorem dot_rhs0 (i : S100000x40.Idx) (q : dot_S100000x128_S128x40_S100000x40_1_0_0_1_n_n.contr.Idx) : (dot_S100000x128_S128x40_S100000x40_1_0_0_1_n_n.rhsIdx i q 0).val = (q ⟨0, by decide⟩).val :=
  dot_S100000x128_S128x40_S100000x40_1_0_0_1_n_n.rhsIdx_val_of_single rfl i q
theorem dot_rhs1 (i : S100000x40.Idx) (q : dot_S100000x128_S128x40_S100000x40_1_0_0_1_n_n.contr.Idx) : (dot_S100000x128_S128x40_S100000x40_1_0_0_1_n_n.rhsIdx i q 1).val = (i 1).val := by
  unfold DotDims.rhsIdx
  rw [dif_neg (show ¬(1 : Fin S128x40.rank) ∈ dot_S100000x128_S128x40_S100000x40_1_0_0_1_n_n.rhsBatch by decide),
    dif_pos (show (1 : Fin S128x40.rank) ∈ dot_S100000x128_S128x40_S100000x40_1_0_0_1_n_n.rhsNonContracting by decide)]
  rfl

/-! ## The logits -/

/-- The logits as the reference computes them. -/
def refLogits (H : FVec Ideal S100000x128 .f32) (w : FVec Ideal S40x128 .f32) (b : FVec Ideal S40 .f32) : FVec Ideal S100000x40 .f32 :=
  addf (Host.dotGeneral dot_S100000x128_S128x40_S100000x40_1_0_0_1_n_n none H (transpose S128x40 [1, 0] w transposes_S40x128_S128x40_1_0))
    (broadcastInDim S100000x40 ![0, 1] bcast_S1x40_S100000x40_0_1 (broadcastInDim S1x40 ![1] bcast_S40_S1x40_1 b))

/-- At row r and class c: the row's features against the class's weights, plus the class's bias. -/
theorem refLogits_apply (H : FVec Ideal S100000x128 .f32) (w : FVec Ideal S40x128 .f32) (b : FVec Ideal S40 .f32)
    (r : Fin 100000) (c : Fin 40) :
    refLogits H w b (ix2 r c)
      = logits (fun k : Fin 128 => H (ix2 r k)) (fun (c' : Fin 40) (k : Fin 128) => w (ix2 c' k)) (fun c' : Fin 40 => b (ix1 c')) c := by
  unfold refLogits logits
  show FloatOps.dotGeneral dot_S100000x128_S128x40_S100000x40_1_0_0_1_n_n none .single H (transpose S128x40 [1, 0] w transposes_S40x128_S128x40_1_0) (ix2 r c)
      + broadcastInDim S100000x40 ![0, 1] bcast_S1x40_S100000x40_0_1 (broadcastInDim S1x40 ![1] bcast_S40_S1x40_1 b) (ix2 r c) = _
  rw [dotGeneral_rows dot_S100000x128_S128x40_S100000x40_1_0_0_1_n_n rfl rfl dot_lhs0 dot_lhs1 dot_rhs0 dot_rhs1 none .single H _ r c,
    broadcastInDim_1b_ab_apply _ bcast_S1x40_S100000x40_0_1 r c, broadcastInDim_b_1b_apply b bcast_S40_S1x40_1 (0 : Fin 1) c]
  refine congrArg (· + b (ix1 c)) (Finset.sum_congr rfl fun k _ => ?_)
  rw [transpose_ix2_apply w transposes_S40x128_S128x40_1_0 k c]

/-! ## The log-softmax -/

/-- A row's maximum as the reference takes it, spread back over the row. -/
def refRowMax (z : FVec Ideal S100000x40 .f32) : FVec Ideal S100000x40 .f32 :=
  broadcastInDim S100000x40 ![0, 1] bcast_S100000x1_S100000x40_0_1 (broadcastInDim S100000x1 ![0] bcast_S100000_S100000x1_0
    (maximumf (broadcastInDim S100000 ![] bcast_S_S100000 (constant (F := Ideal) S_ .f32 0xFF800000#32))
      (Host.reduce FloatOps.maximumf z (constant (F := Ideal) S_ .f32 0xFF800000#32) reducesTo_S100000x40_S100000_d1 h_S_)))

theorem refRowMax_apply (z : FVec Ideal S100000x40 .f32) (r : Fin 100000) (c : Fin 40) :
    refRowMax z (ix2 r c) = rowMax (fun c' : Fin 40 => z (ix2 r c')) := by
  unfold refRowMax
  rw [broadcastInDim_a1_ab_apply _ bcast_S100000x1_S100000x40_0_1 r c, broadcastInDim_a_a1_apply _ bcast_S100000_S100000x1_0 r (0 : Fin 1),
    maximumf_apply, broadcastInDim_scalar_a_apply _ bcast_S_S100000 r, constant_apply,
    hostReduce_maximumf_row z reducesTo_S100000x40_S100000_d1 (by decide) h_S_ r]
  exact max_negInf _

/-- The host's exponential and logarithm of an array, read at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- jax's log_softmax along the rows, as the reference's operations spell it. -/
def refLogSoftmax (z : FVec Ideal S100000x40 .f32) : FVec Ideal S100000x40 .f32 :=
  subf (subf z (refRowMax z))
    (broadcastInDim S100000x40 ![0, 1] bcast_S100000x1_S100000x40_0_1 (Host.log (broadcastInDim S100000x1 ![0] bcast_S100000_S100000x1_0
      (Host.reduceAdd (Host.exp (subf z (refRowMax z))) (constant (F := Ideal) S_ .f32 0x00000000#32) reducesTo_S100000x40_S100000_d1 h_S_))))

theorem refLogSoftmax_apply (z : FVec Ideal S100000x40 .f32) (r : Fin 100000) (c : Fin 40) :
    refLogSoftmax z (ix2 r c) = rowLogSoftmax (fun c' : Fin 40 => z (ix2 r c')) c := by
  unfold refLogSoftmax rowLogSoftmax
  rw [subf_apply, subf_apply, refRowMax_apply z r c, broadcastInDim_a1_ab_apply _ bcast_S100000x1_S100000x40_0_1 r c,
    hostLog_apply, broadcastInDim_a_a1_apply _ bcast_S100000_S100000x1_0 r (0 : Fin 1),
    hostReduceAdd_row _ reducesTo_S100000x40_S100000_d1 (by decide) h_S_ r]
  refine congrArg (fun s => (z (ix2 r c) - rowMax (fun c' : Fin 40 => z (ix2 r c'))) - Ideal.log s) (Finset.sum_congr rfl fun k _ => ?_)
  rw [hostExp_apply, subf_apply, refRowMax_apply z r k]

/-! ## The tail as one function of (H, w, b) -/

/-- The reference's operations after the propagation, applied to any feature array H, are `G` of it. -/
theorem tail_eq (H : FVec Ideal S100000x128 .f32) (w : FVec Ideal S40x128 .f32) (b : FVec Ideal S40 .f32) :
    subf (subf (addf (Host.dotGeneral dot_S100000x128_S128x40_S100000x40_1_0_0_1_n_n none H (transpose S128x40 [1, 0] w transposes_S40x128_S128x40_1_0)) (broadcastInDim S100000x40 ![0, 1] bcast_S1x40_S100000x40_0_1 (broadcastInDim S1x40 ![1] bcast_S40_S1x40_1 b))) (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf (addf (Host.dotGeneral dot_S100000x128_S128x40_S100000x40_1_0_0_1_n_n none H (transpose S128x40 [1, 0] w transposes_S40x128_S128x40_1_0)) (broadcastInDim S100000x40 ![0, 1] bcast_S1x40_S100000x40_0_1 (broadcastInDim S1x40 ![1] bcast_S40_S1x40_1 b))) (constant (F := Ideal) S_ .f32 0xFF800000#32) reducesTo_S100000x40_S100000_d1 h_S_))))) (broadcastInDim S100000x40 ![0, 1] bcast_S100000x1_S100000x40_0_1 (Host.log (broadcastInDim S100000x1 ![0] bcast_S100000_S100000x1_0 (Host.reduceAdd (Host.exp (subf (addf (Host.dotGeneral dot_S100000x128_S128x40_S100000x40_1_0_0_1_n_n none H (transpose S128x40 [1, 0] w transposes_S40x128_S128x40_1_0)) (broadcastInDim S100000x40 ![0, 1] bcast_S1x40_S100000x40_0_1 (broadcastInDim S1x40 ![1] bcast_S40_S1x40_1 b))) (broadcastInDim S100000x40 ![0, 1] bcast_S100000x1_S100000x40_0_1 (broadcastInDim S100000x1 ![0] bcast_S100000_S100000x1_0 (maximumf (broadcastInDim S100000 ![] bcast_S_S100000 (constant (F := Ideal) S_ .f32 0xFF800000#32)) (Host.reduce FloatOps.maximumf (addf (Host.dotGeneral dot_S100000x128_S128x40_S100000x40_1_0_0_1_n_n none H (transpose S128x40 [1, 0] w transposes_S40x128_S128x40_1_0)) (broadcastInDim S100000x40 ![0, 1] bcast_S1x40_S100000x40_0_1 (broadcastInDim S1x40 ![1] bcast_S40_S1x40_1 b))) (constant (F := Ideal) S_ .f32 0xFF800000#32) reducesTo_S100000x40_S100000_d1 h_S_)))))) (constant (F := Ideal) S_ .f32 0x00000000#32) reducesTo_S100000x40_S100000_d1 h_S_))))
      = G H w b := by
  show refLogSoftmax (refLogits H w b) = G H w b
  funext i
  obtain ⟨r, c, rfl⟩ : ∃ (r : Fin 100000) (c : Fin 40), i = ix2 r c := ⟨i 0, i 1, eq_ix2 i⟩
  rw [refLogSoftmax_apply, G_ix2]
  exact congrArg (fun z => rowLogSoftmax z c) (funext fun c' => refLogits_apply H w b r c')

end Cert.ReferenceIdeal.RefValue

end
-- ==== Proof.RefFold.lean ====
/-
  The reference's two halves, each read by itself.

  The classifier's 20 operations, started from ANY contents W of the buffers, leave in the result buffer the
  function `G` of what W holds in the propagated-feature buffer, the weight argument and the bias argument:
  they are run one by one and the composed operations are the ones read at a row and a class before.
  The propagation's 71 operations write neither the weight nor the bias argument. And each of its two
  concatenates — an edge-list row followed by the self loops — leaves `concat2` of its two operands' contents.
-/
import proofs.«123037_j63677185130716_1_alg».proof.Proof.RefRunH
import proofs.«123037_j63677185130716_1_alg».proof.Proof.RefTail

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibFold Cert.LogSoftmaxSpec

variable {F : FTy → Type} [FloatOps F]

/-- The source list: the edge list's first row followed by the self loops, its two parts as plain arguments. -/
theorem cat_v3 (ha hb hy) (V : Valuation τ sig (Elt F)) :
    (binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ha hb hy : HloOp τ sig (Elt F)).result V (no_index (Proc.devRef .tc main_v3))
      = concat2 S700000 0 S600000 S100000 concatenates_S600000_S100000_S700000_d0 (V (Proc.devRef .tc main_v2)) (V (Proc.devRef .tc main_v0)) :=
  binary_result main_v2 main_v0 main_v3 _ ha hb hy V

/-- The target list: the edge list's second row followed by the self loops, likewise. -/
theorem cat_v6 (ha hb hy) (V : Valuation τ sig (Elt F)) :
    (binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ha hb hy : HloOp τ sig (Elt F)).result V (no_index (Proc.devRef .tc main_v6))
      = concat2 S700000 0 S600000 S100000 concatenates_S600000_S100000_S700000_d0 (V (Proc.devRef .tc main_v5)) (V (Proc.devRef .tc main_v0)) :=
  binary_result main_v5 main_v0 main_v6 _ ha hb hy V

/-- The propagation writes neither the weight argument nor the bias argument. -/
theorem pre_kept (L : Valuation τ sig (Elt F)) (a : Ref sig .tc) (ha : a = main_arg1 ∨ a = main_arg2) :
    after opsPre L (Proc.devRef .tc a) = L (Proc.devRef .tc a) := by
  refine after_of_forall_not_mem (b := Proc.devRef .tc a) _ _ (List.forall_iff_forall_mem.mp ?_)
  rcases ha with rfl | rfl <;>
  · simp only [opsPre, List.Forall, nullary_writes, unary_writes, binary_writes, ternary_writes, quaternary_writes, reshape_writes,
      binaryIndexed_writes, TRef.nullary, TRef.unary, TRef.binary, TRef.ternary, Finset.mem_singleton]
    repeat' apply And.intro
    all_goals exact devRef_ne_of_ne (by decide)

/-- A value stored through a called function's typed buffer and read back through it is the value. -/
theorem ofBuf_toBuf {T : BufTy} (x : TRef sig T) (v : T.Contents (Elt F)) : x.ofBuf (x.toBuf v) = v := by
  obtain ⟨r, h, hd, hu⟩ := x
  subst h
  rfl

/-- The logits buffer read at its own type, and the result buffer written at its own type: the identity. -/
theorem ofBuf_logits (v : (⟨S100000x40, .f32⟩ : BufTy).Contents (Elt F)) :
    (TRef.of (T := ⟨S100000x40, .f32⟩) main_v60).ofBuf v = v := rfl
theorem toBuf_result (v : (⟨S100000x40, .f32⟩ : BufTy).Contents (Elt F)) :
    (TRef.of (T := ⟨S100000x40, .f32⟩) main_v61).toBuf v = v := rfl

/-- The classifier's operations, from any contents W, leave `G` of W's propagated features and the two arguments. -/
theorem tail_G (W : Valuation τ sig (Elt Ideal)) :
    (after (opsTail (F := Ideal)) W (Proc.devRef .tc main_v61) : S100000x40.Idx → EReal)
      = G (W (Proc.devRef .tc main_v55)) (W (Proc.devRef .tc main_arg1)) (W (Proc.devRef .tc main_arg2)) := by
  refine Eq.trans ?_ (Cert.ReferenceIdeal.RefValue.tail_eq _ _ _)
  after_results_simp
  simp only [ofBuf_toBuf, ofBuf_logits, toBuf_result]
  rfl

end Cert.ReferenceIdeal.HandRun

end
-- ==== Proof.KernelFold.lean ====
/-
  The kernel program's two concatenates — an edge-list row followed by the self loops: each leaves `concat2` of
  its two operands' contents.
-/
import proofs.«123037_j63677185130716_1_alg».proof.Proof.Gen.KernelIdeal.Launch
import proofs.«123037_j63677185130716_1_alg».proof.Proof.LibFold

noncomputable section

namespace Cert.KernelIdeal.HostFold

open Cert.KernelIdeal Cert.KernelIdeal.Gen Idealize.ShloMosaic Idealize.ShloMosaic.TcCoe Idealize.SL.Sem Idealize.ShloMosaic.StableHlo
open Cert.LibFold

variable {F : FTy → Type} [FloatOps F]

/-- The source list: the edge list's first row followed by the self loops, its two parts as plain arguments. -/
theorem cat_v3 (ha hb hy) (V : Valuation τ sig (Elt F)) :
    (binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ha hb hy : HloOp τ sig (Elt F)).result V (no_index (Proc.devRef .tc main_v3))
      = concat2 S700000 0 S600000 S100000 concatenates_S600000_S100000_S700000_d0 (V (Proc.devRef .tc main_v2)) (V (Proc.devRef .tc main_v0)) :=
  binary_result main_v2 main_v0 main_v3 _ ha hb hy V

/-- The target list: the edge list's second row followed by the self loops, likewise. -/
theorem cat_v6 (ha hb hy) (V : Valuation τ sig (Elt F)) :
    (binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)) ha hb hy : HloOp τ sig (Elt F)).result V (no_index (Proc.devRef .tc main_v6))
      = concat2 S700000 0 S600000 S100000 concatenates_S600000_S100000_S700000_d0 (V (Proc.devRef .tc main_v5)) (V (Proc.devRef .tc main_v0)) :=
  binary_result main_v5 main_v0 main_v6 _ ha hb hy V

end Cert.KernelIdeal.HostFold

end
-- ==== Proof.Payload.lean ====
/-
  What the kernel body stores, read at a row and a class.

  The body takes a block x0 of 5000 rows of features, the whole transposed weight array x1 (128 × 40) and the
  bias as one row x2 (1 × 40). At the ideal values its rounding of both matmul operands to bf16 is the identity,
  so the matmul into a zero accumulator gives, at row p and class c, ∑ k, x0 (p, k) · x1 (k, c); the bias row
  is spread over the rows and added: these are the row's logits. The rest of the body is the log-softmax of
  each row: the row maximum (from −∞) kept as a column and spread back, subtracted; the exponentials summed
  along the row, the logarithm of the sum spread back and subtracted.
-/
import proofs.«123037_j63677185130716_1_alg».proof.Proof.Gen.KernelIdeal.Skeleton
import proofs.«123037_j63677185130716_1_alg».proof.Proof.Spec

noncomputable section

namespace Cert.KernelIdeal.RowValue

open Cert.KernelIdeal Cert.KernelIdeal.Gen Idealize.ShloMosaic Idealize.ShloMosaic.ValueIdx Cert.LibRows Cert.LogSoftmaxSpec

/-! ## The matmul's dimension numbers: rows against columns -/

theorem dot_lhs0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl
theorem dot_lhs1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem dot_rhs0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem dot_rhs1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-! ## The block's logits -/

/-- The logits as the body computes them from its three loads. -/
def blockLogits (x0 : Vec Ideal S5000x128 .f32) (x1 : Vec Ideal S128x40 .f32) (x2 : Vec Ideal S1x40 .f32) : FVec Ideal S5000x40 .f32 :=
  addf
    (matmul dot_S5000x128_S128x40_S5000x40_1_0_0_1_n_n none
      (truncf .bf16 (shapeCast S5000x128 x0 shapeCasts_S5000x128_S5000x128) bitsLt_bf16_f32)
      (truncf .bf16 (shapeCast S128x40 x1 shapeCasts_S128x40_S128x40) bitsLt_bf16_f32)
      (constant S5000x40 .f32 0x00000000#32))
    (broadcastTo S5000x40 (shapeCast S1x40 (shapeCast S1x40 x2 shapeCasts_S1x40_S1x40) shapeCasts_S1x40_S1x40) broadcasts_S1x40_S5000x40)

/-- At row p and class c they are the row's features against the class's column of weights, plus the class's bias. -/
theorem blockLogits_apply (x0 : Vec Ideal S5000x128 .f32) (x1 : Vec Ideal S128x40 .f32) (x2 : Vec Ideal S1x40 .f32)
    (p : Fin 5000) (c : Fin 40) :
    blockLogits x0 x1 x2 (ix2 p c)
      = logits (fun k : Fin 128 => x0 (ix2 p k)) (fun (c' : Fin 40) (k : Fin 128) => x1 (ix2 k c')) (fun c' : Fin 40 => x2 (ix2 (0 : Fin 1) c')) c := by
  have e0 : (truncf .bf16 (shapeCast S5000x128 x0 shapeCasts_S5000x128_S5000x128) bitsLt_bf16_f32 : FVec Ideal S5000x128 .bf16) = x0 := by
    rw [shapeCast_self]; rfl
  have e1 : (truncf .bf16 (shapeCast S128x40 x1 shapeCasts_S128x40_S128x40) bitsLt_bf16_f32 : FVec Ideal S128x40 .bf16) = x1 := by
    rw [shapeCast_self]; rfl
  unfold blockLogits logits
  rw [e0, e1, shapeCast_self, shapeCast_self]
  show FloatOps.matmul (F := Ideal) dot_S5000x128_S128x40_S5000x40_1_0_0_1_n_n none x0 x1 (constant S5000x40 .f32 0x00000000#32) (ix2 p c)
      + broadcastTo S5000x40 x2 broadcasts_S1x40_S5000x40 (ix2 p c) = _
  rw [broadcastTo_1b_ab_apply x2 broadcasts_S1x40_S5000x40 p c,
    matmul_zero_rows dot_S5000x128_S128x40_S5000x40_1_0_0_1_n_n rfl rfl dot_lhs0 dot_lhs1 dot_rhs0 dot_rhs1 none x0 x1 p c]

/-! ## The log-softmax of the block's rows -/

/-- The rest of the body, as a function of the logits block. -/
def blockLogSoftmax (z : FVec Ideal S5000x40 .f32) : FVec Ideal S5000x40 .f32 :=
  subf
    (subf z (broadcastTo S5000x40 (shapeCast S5000x1 (multiReduction .maximumf [1] S5000 z 0xFF800000#32 reduces_S5000x40_S5000 (.inl rfl) rfl) shapeCasts_S5000_S5000x1) broadcasts_S5000x1_S5000x40))
    (broadcastTo S5000x40
      (log (shapeCast S5000x1
        (multiReduction .add [1] S5000
          (exp (subf z (broadcastTo S5000x40 (shapeCast S5000x1 (multiReduction .maximumf [1] S5000 z 0xFF800000#32 reduces_S5000x40_S5000 (.inl rfl) rfl) shapeCasts_S5000_S5000x1) broadcasts_S5000x1_S5000x40)))
          0x00000000#32 reduces_S5000x40_S5000 (.inl rfl) rfl)
        shapeCasts_S5000_S5000x1))
      broadcasts_S5000x1_S5000x40)

/-- A logit less its row's maximum. -/
theorem shifted_apply (z : FVec Ideal S5000x40 .f32) (p : Fin 5000) (c : Fin 40) :
    subf z (broadcastTo S5000x40 (shapeCast S5000x1 (multiReduction .maximumf [1] S5000 z 0xFF800000#32 reduces_S5000x40_S5000 (.inl rfl) rfl) shapeCasts_S5000_S5000x1) broadcasts_S5000x1_S5000x40) (ix2 p c)
      = z (ix2 p c) - rowMax (fun c' : Fin 40 => z (ix2 p c')) := by
  show z (ix2 p c) - broadcastTo S5000x40 (shapeCast S5000x1 (multiReduction .maximumf [1] S5000 z 0xFF800000#32 reduces_S5000x40_S5000 (.inl rfl) rfl) shapeCasts_S5000_S5000x1) broadcasts_S5000x1_S5000x40 (ix2 p c) = _
  rw [broadcastTo_a1_ab_apply _ broadcasts_S5000x1_S5000x40 p c, shapeCast_a_a1_apply _ shapeCasts_S5000_S5000x1 p (0 : Fin 1),
    multiReduction_maximumf_row z reduces_S5000x40_S5000 (.inl rfl) rfl p]

/-- At row p and class c it is the log-softmax of row p's logits. -/
theorem blockLogSoftmax_apply (z : FVec Ideal S5000x40 .f32) (p : Fin 5000) (c : Fin 40) :
    blockLogSoftmax z (ix2 p c) = rowLogSoftmax (fun c' : Fin 40 => z (ix2 p c')) c := by
  unfold blockLogSoftmax rowLogSoftmax
  show subf z _ (ix2 p c) - broadcastTo S5000x40 _ broadcasts_S5000x1_S5000x40 (ix2 p c) = _
  rw [shifted_apply z p c, broadcastTo_a1_ab_apply _ broadcasts_S5000x1_S5000x40 p c]
  show _ - Ideal.log (shapeCast S5000x1 _ shapeCasts_S5000_S5000x1 (ix2 p (0 : Fin 1))) = _
  rw [shapeCast_a_a1_apply _ shapeCasts_S5000_S5000x1 p (0 : Fin 1),
    multiReduction_add_row _ reduces_S5000x40_S5000 (.inl rfl) rfl p]
  refine congrArg (fun s => (z (ix2 p c) - rowMax (fun c' : Fin 40 => z (ix2 p c'))) - Ideal.log s) (Finset.sum_congr rfl fun k _ => ?_)
  show Ideal.exp (subf z _ (ix2 p k)) = _
  rw [shifted_apply z p k]

/-! ## The payload -/

/-- The body's one stored value is the log-softmax of the block's logits … -/
theorem pay_eq (x0 : Vec Ideal S5000x128 .f32) (x1 : Vec Ideal S128x40 .f32) (x2 : Vec Ideal S1x40 .f32) :
    k0_pay1 (F := Ideal) x0 x1 x2 = blockLogSoftmax (blockLogits x0 x1 x2) := rfl

/-- … so at row p and class c of the block it is the log-softmax of that row's logits. -/
theorem pay_apply (x0 : Vec Ideal S5000x128 .f32) (x1 : Vec Ideal S128x40 .f32) (x2 : Vec Ideal S1x40 .f32) (p : Fin 5000) (c : Fin 40) :
    k0_pay1 (F := Ideal) x0 x1 x2 (ix2 p c)
      = rowLogSoftmax (logits (fun k : Fin 128 => x0 (ix2 p k)) (fun (c' : Fin 40) (k : Fin 128) => x1 (ix2 k c')) (fun c' : Fin 40 => x2 (ix2 (0 : Fin 1) c'))) c := by
  rw [pay_eq, blockLogSoftmax_apply]
  exact congrArg (fun z => rowLogSoftmax z c) (funext fun c' => blockLogits_apply x0 x1 x2 p c')

end Cert.KernelIdeal.RowValue

end
-- ==== Proof.KernelArray.lean ====
/-
  From the kernel's blocks to its whole result array.

  The pallas_call walks 20 grid points; point t takes rows 5000·t … 5000·t + 4999 of the propagated feature
  array (window 0), the whole transposed weight array (window 1) and the bias row (window 2), and writes back
  rows 5000·t … 5000·t + 4999 of the result (window 3). The transposed weights and the bias row are made by two
  host operations before the call: a transpose of the weight argument and a reshape of the bias argument.
  So what point t writes back is block t of `G` of (the propagated features as the call finds them, the weight
  argument, the bias argument); the 20 blocks tile the 100000 rows — row r lies in block r / 5000 —, hence the
  array after the run IS that `G`.
  The array the call finds in window 0 is the result of some seventy host operations; here it is one array,
  whatever it holds: nothing below depends on its contents.
-/
import proofs.«123037_j63677185130716_1_alg».proof.Proof.Gen.KernelIdeal.Value
import proofs.«123037_j63677185130716_1_alg».proof.Proof.Payload
import Idealize.ShloMosaic.Lib.StableHlo.Run
import Idealize.ShloMosaic.Lib.ValueLayout

noncomputable section

namespace Cert.KernelIdeal.RowValue

open Cert.KernelIdeal Cert.KernelIdeal.Gen Idealize.ShloMosaic Idealize.ShloMosaic.TcCoe Idealize.SL.Sem
open Idealize.ShloMosaic.ValueIdx Idealize.ShloMosaic.StableHlo Cert.LibRows Cert.LogSoftmaxSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 20 grid points: the feature rows and the result rows move with the point,
    the weights and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Where a block's entries sit in its array: index arithmetic only -/

/-- Entry (p, k) of the feature block at point t sits at row 5000·t + p of the array. -/
theorem emb_features (t : Fin cfg0.N) (p : Fin 5000) (k : Fin 128) (r : Fin 100000) (hr : r.val = t.val * 5000 + p.val) :
    ((cfg0.win 0).blk t).view.emb (ix2 p k) = ix2 r k := by
  obtain ⟨e0, e1, -, -, -, -, -, -⟩ := idx_facts t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight block is the whole array at every point. -/
theorem emb_weights (t : Fin cfg0.N) (k : Fin 128) (c' : Fin 40) :
    ((cfg0.win 1).blk t).view.emb (ix2 k c') = ix2 k c' := by
  obtain ⟨-, -, e0, e1, -, -, -, -⟩ := idx_facts t
  funext a; apply Fin.ext
  match a with
  | ⟨0, _⟩ => show win0_1.index t (0 : Fin 2) * 128 + 1 * k.val = k.val; omega
  | ⟨1, _⟩ => show win0_1.index t (1 : Fin 2) * 40 + 1 * c'.val = c'.val; omega

/-- So is the bias block. -/
theorem emb_bias (t : Fin cfg0.N) (c' : Fin 40) :
    ((cfg0.win 2).blk t).view.emb (ix2 (0 : Fin 1) c') = ix2 (0 : Fin 1) c' := by
  obtain ⟨-, -, -, -, e0, e1, -, -⟩ := idx_facts t
  funext a; apply Fin.ext
  match a with
  | ⟨0, _⟩ => show win0_2.index t (0 : Fin 2) * 1 + 1 * 0 = 0; omega
  | ⟨1, _⟩ => show win0_2.index t (1 : Fin 2) * 40 + 1 * c'.val = c'.val; omega

/-- Entry (p, q) of the result block at point t sits at row 5000·t + p of the result array. -/
theorem emb_result (t : Fin cfg0.N) (p : Fin 5000) (q : Fin 40) (r : Fin 100000) (hr : r.val = t.val * 5000 + p.val) :
    ((cfg0.win 3).blk t).view.emb (ix2 p q) = ix2 r q := by
  obtain ⟨-, -, -, -, -, -, e0, e1⟩ := idx_facts t
  funext a; apply Fin.ext
  match a with
  | ⟨0, _⟩ => show win0_3.index t (0 : Fin 2) * 5000 + 1 * p.val = r.val; omega
  | ⟨1, _⟩ => show win0_3.index t (1 : Fin 2) * 40 + 1 * q.val = q.val; omega

/-! ## What the two host operations before the call leave in windows 1 and 2 -/

/-- The contents the call finds in a buffer depend on the buffer only. -/
theorem V_congr (c : Dev nD) {b b' : Ref sig .tc} (h : b = b') : HEq (V m c b) (V m c b') := by
  subst h; exact HEq.rfl

/-- The transpose's result buffer holds the weight argument transposed. -/
theorem V_weightsT (c : Dev nD) :
    (V m c main_v56 : S128x40.Idx → EReal) = transpose S128x40 [1, 0] (m ((c : Thread nD τ).loc main_arg1)) transposes_S40x128_S128x40_1_0 := by
  dsimp only [Gen.V]
  simp only [Gen.hostOps0, Gen.hostOps0_1, Gen.hostOps0_2, List.flatten_cons, List.flatten_nil, List.append_nil, List.cons_append,
    List.nil_append]
  after_results_simp <;> rfl

/-- The reshape's result buffer holds the bias argument as one row. -/
theorem V_biasRow (c : Dev nD) :
    (V m c main_v57 : S1x40.Idx → EReal) = shapeCast S1x40 (m ((c : Thread nD τ).loc main_arg2)) shapeCasts_S40_S1x40 := by
  dsimp only [Gen.V]
  simp only [Gen.hostOps0, Gen.hostOps0_1, Gen.hostOps0_2, List.flatten_cons, List.flatten_nil, List.append_nil, List.cons_append,
    List.nil_append]
  after_results_simp <;> rfl

/-- Window 1's array is the transpose's result buffer, window 2's the reshape's. -/
theorem V_win1 (c : Dev nD) :
    (V m c (Pipeline.arrRef spec0 1) : S128x40.Idx → EReal) = transpose S128x40 [1, 0] (m ((c : Thread nD τ).loc main_arg1)) transposes_S40x128_S128x40_1_0 :=
  (eq_of_heq (V_congr m c (rfl : Pipeline.arrRef spec0 1 = main_v56))).trans (V_weightsT m c)
theorem V_win2 (c : Dev nD) :
    (V m c (Pipeline.arrRef spec0 2) : S1x40.Idx → EReal) = shapeCast S1x40 (m ((c : Thread nD τ).loc main_arg2)) shapeCasts_S40_S1x40 :=
  (eq_of_heq (V_congr m c (rfl : Pipeline.arrRef spec0 2 = main_v57))).trans (V_biasRow m c)

/-! ## The input blocks at a point, read at an index -/

/-- Row p of the feature block at point t is row 5000·t + p of the propagated feature array. -/
theorem read_features (c : Dev nD) (t : Fin cfg0.N) (p : Fin 5000) (k : Fin 128) (r : Fin 100000) (hr : r.val = t.val * 5000 + p.val) :
    iblk m c 0 t (ix2 p k) = V m c (Pipeline.arrRef spec0 0) (ix2 r k) := by
  unfold iblk
  rw [View.read_apply, emb_features t p k r hr]
  exact cast_eq _ _

/-- The weight block at any point, at (k, c'), is the weight argument at (c', k). -/
theorem read_weights (c : Dev nD) (t : Fin cfg0.N) (k : Fin 128) (c' : Fin 40) :
    iblk m c 1 t (ix2 k c') = m ((c : Thread nD τ).loc main_arg1) (ix2 c' k) := by
  have hb : iblk m c 1 t (ix2 k c') = V m c (Pipeline.arrRef spec0 1) (ix2 k c') := by
    unfold iblk
    rw [View.read_apply, emb_weights t k c']
    exact cast_eq _ _
  rw [hb, V_win1 m c]
  exact transpose_ix2_apply _ transposes_S40x128_S128x40_1_0 k c'

/-- The bias block at any point, at (0, c'), is the bias argument at c'. -/
theorem read_bias (c : Dev nD) (t : Fin cfg0.N) (c' : Fin 40) :
    iblk m c 2 t (ix2 (0 : Fin 1) c') = m ((c : Thread nD τ).loc main_arg2) (ix1 c') := by
  have hb : iblk m c 2 t (ix2 (0 : Fin 1) c') = V m c (Pipeline.arrRef spec0 2) (ix2 (0 : Fin 1) c') := by
    unfold iblk
    rw [View.read_apply, emb_bias t c']
    exact cast_eq _ _
  rw [hb, V_win2 m c]
  exact shapeCast_a_1a_apply _ shapeCasts_S40_S1x40 (0 : Fin 1) c'

/-! ## What a point writes back -/

/-- The function the result array ends holding: `G` of the propagated features as the call finds them and of
    the weight and bias arguments. -/
def result (c : Dev nD) : S100000x40.Idx → EReal :=
  G (V m c (Pipeline.arrRef spec0 0)) (m ((c : Thread nD τ).loc main_arg1)) (m ((c : Thread nD τ).loc main_arg2))

/-- A block of values P cut to the output window and an array R read through the window's block at point t agree
    as soon as they agree entry by entry (the window is not clipped: the cut and the read are re-indexings). -/
theorem cut_eq_read (t : Fin cfg0.N) (P : FVec Ideal S5000x40 .f32) (R : S100000x40.Idx → EReal)
    (h : ∀ (p : Fin 5000) (q : Fin 40), P (ix2 p q) = R (((cfg0.win 3).blk t).view.emb (ix2 p q))) :
    (cfg0.win 3).cut (grid0.coords t) P = ((cfg0.win 3).blk t).view.read (Elt Ideal) R := by
  funext j
  obtain ⟨p, q, rfl⟩ : ∃ (p : Fin 5000) (q : Fin 40), j = ix2 p q := ⟨j 0, j 1, eq_ix2 j⟩
  exact h p q

/-- Point t writes back block t of `result`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S5000x128) hz, View.ld_unit_zero (S := S128x40) hz, View.ld_unit_zero (S := S1x40) hz]
  have hN : cfg0.N = 20 := N_0
  have ht : t.val < 20 := hN ▸ t.isLt
  refine cut_eq_read t _ _ fun p q => ?_
  have hp : p.val < 5000 := p.isLt
  rw [emb_result t p q ⟨t.val * 5000 + p.val, by omega⟩ rfl]
  refine (pay_apply (iblk m c 0 t) (iblk m c 1 t) (iblk m c 2 t) p q).trans ?_
  unfold result
  rw [G_ix2]
  refine congrArg (fun z => rowLogSoftmax z q) (funext fun c' => ?_)
  unfold logits
  beta_reduce
  rw [read_bias m c t c']
  refine congrArg (· + m ((c : Thread nD τ).loc main_arg2) (ix1 c')) (Finset.sum_congr rfl fun k _ => ?_)
  rw [read_features m c t p k ⟨t.val * 5000 + p.val, by omega⟩ rfl, read_weights m c t k c']

/-! ## The blocks tile the rows -/

/-- An index of the result array is in point t's block iff each coordinate is in the block's range on its axis. -/
theorem mem_blk (t : Fin cfg0.N) (i : S100000x40.Idx) :
    i ∈ ((cfg0.win 3).blk t).view.set ↔ ∀ a : Fin 2, win0_3.index t a * S5000x40.size a ≤ (i a).val ∧ (i a).val < win0_3.index t a * S5000x40.size a + S5000x40.size a := by
  show i ∈ ((View.whole main_v58).slice (win0_3.rect t)).set ↔ _
  rw [View.set_slice_whole, Rect.mem_set_unit]
  exact Iff.rfl

/-- Row r of the result lies in the block of point r / 5000, which writes back. -/
theorem cover (i : S100000x40.Idx) : ∃ t : Fin cfg0.N, (cfg0.win 3).flush t = true ∧ i ∈ ((cfg0.win 3).blk t).view.set := by
  have hi0 : (i 0).val < 100000 := (i 0).isLt
  have hi1 : (i 1).val < 40 := (i 1).isLt
  have hN : cfg0.N = 20 := N_0
  let t : Fin cfg0.N := ⟨(i 0).val / 5000, by rw [hN]; omega⟩
  have htv : t.val = (i 0).val / 5000 := rfl
  obtain ⟨-, -, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 40 ≤ (i 1).val ∧ (i 1).val < win0_3.index t (1 : Fin 2) * 40 + 40; omega

/-! ## The array after the run, and the run -/

/-- The result array after the run is `result`. -/
theorem final (c : Dev nD) : (dats m 0 c).arrAt 3 cfg0.N = result m c :=
  (dats m 0 c).arrAt_eq_of_cover 3 (result m c) (fun t _ => flushed_eq m c t) cover

/-- The kernel's run with its result array named: `result`, the arguments unchanged. -/
theorem run : θ_run defs (onTc (τ := τ) (main (F := Ideal))) ⟨m, fun _ => 0, ρ⟩ fun r => ∀ c : Dev nD,
      r.2.mem ((c : Thread nD τ).loc main_v58) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.RowValue

end
-- ==== Proof.Bridge.lean ====
/-
  The two propagations are one function of the node features and the edge list.

  Before its pallas_call the kernel program runs the same 71 host operations as the reference's propagation,
  operation for operation: the self loops, the source and target lists, the degrees by a scatter-add of ones,
  the normalisation  rsqrt(deg)  where the degree is positive and 0 elsewhere, gathered at both ends of every
  edge and multiplied, and two hops of gather · scale · scatter-add. Each program's line of operations is read
  down to one composed term over the contents of the feature argument and of the edge-list argument; the two
  terms are the same term, so from arguments that agree the two programs hand the same propagated feature array
  to their classifiers. With the reference's classifier read as `G` of that array and the kernel's result array
  read as `G` of it too, the reference's result is the kernel's.
-/
import proofs.«123037_j63677185130716_1_alg».proof.Proof.RefFold
import proofs.«123037_j63677185130716_1_alg».proof.Proof.KernelFold
import proofs.«123037_j63677185130716_1_alg».proof.Proof.KernelArray

noncomputable section

namespace Cert.Proof.Bridge

open Idealize.ShloMosaic Idealize.ShloMosaic.TcCoe Idealize.SL.Sem Idealize.ShloMosaic.StableHlo
open Cert.LibFold Cert.LogSoftmaxSpec

set_option maxRecDepth 16384 in
set_option maxHeartbeats 8000000 in
/-- From contents that agree on the feature argument and the edge-list argument, the reference's propagation and
    the kernel program's host operations before the call leave the same propagated feature array. -/
theorem propagation_eq (L' : Valuation Cert.ReferenceIdeal.τ Cert.ReferenceIdeal.sig (Elt Ideal)) (L : Valuation Cert.KernelIdeal.τ Cert.KernelIdeal.sig (Elt Ideal))
    (h0 : (L' (Proc.devRef .tc Cert.ReferenceIdeal.main_arg0) : (⟨2, ![100000, 128]⟩ : Shape).Idx → EReal) = L (Proc.devRef .tc Cert.KernelIdeal.main_arg0))
    (h3 : (L' (Proc.devRef .tc Cert.ReferenceIdeal.main_arg3) : (⟨2, ![2, 600000]⟩ : Shape).Idx → BitVec 32) = L (Proc.devRef .tc Cert.KernelIdeal.main_arg3)) :
    (after (Cert.ReferenceIdeal.HandRun.opsPre (F := Ideal)) L' (Proc.devRef .tc Cert.ReferenceIdeal.main_v55) : (⟨2, ![100000, 128]⟩ : Shape).Idx → EReal)
      = after (List.flatten [Cert.KernelIdeal.Gen.hostOps0 (F := Ideal), Cert.KernelIdeal.Gen.hostOps0_1, Cert.KernelIdeal.Gen.hostOps0_2]) L (Proc.devRef .tc Cert.KernelIdeal.main_v55) := by
  simp only [Cert.KernelIdeal.Gen.hostOps0, Cert.KernelIdeal.Gen.hostOps0_1, Cert.KernelIdeal.Gen.hostOps0_2, Cert.ReferenceIdeal.HandRun.opsPre, List.flatten_cons, List.flatten_nil,
    List.append_nil, List.cons_append, List.nil_append]
  simp (disch := decide) only [after_cons, after_nil,
    ↓Cert.ReferenceIdeal.HandRun.cat_v3, ↓Cert.ReferenceIdeal.HandRun.cat_v6, ↓Cert.KernelIdeal.HostFold.cat_v3, ↓Cert.KernelIdeal.HostFold.cat_v6,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rw [h0, h3]
  rfl

/-- The reference's result is the kernel's result array, from arguments that agree. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (after (Cert.ReferenceIdeal.HandRun.opsTail (F := Ideal)) (after Cert.ReferenceIdeal.HandRun.opsPre (launchContents m' c)) (Proc.devRef .tc Cert.ReferenceIdeal.main_v61)
        : (⟨2, ![100000, 40]⟩ : Shape).Idx → EReal)
      = Cert.KernelIdeal.RowValue.result m c := by
  refine (Cert.ReferenceIdeal.HandRun.tail_G _).trans ?_
  unfold Cert.KernelIdeal.RowValue.result
  rw [Cert.ReferenceIdeal.HandRun.pre_kept _ Cert.ReferenceIdeal.main_arg1 (.inl rfl), Cert.ReferenceIdeal.HandRun.pre_kept _ Cert.ReferenceIdeal.main_arg2 (.inr rfl)]
  have e1 : launchContents m' c (Proc.devRef .tc Cert.ReferenceIdeal.main_arg1) = m ((c.tc : Thread Cert.KernelIdeal.nD Cert.KernelIdeal.τ).loc Cert.KernelIdeal.main_arg1) := hag.2.1
  have e2 : launchContents m' c (Proc.devRef .tc Cert.ReferenceIdeal.main_arg2) = m ((c.tc : Thread Cert.KernelIdeal.nD Cert.KernelIdeal.τ).loc Cert.KernelIdeal.main_arg2) := hag.2.2.1
  rw [e1, e2]
  refine congrArg (fun H => G H (m ((c.tc : Thread Cert.KernelIdeal.nD Cert.KernelIdeal.τ).loc Cert.KernelIdeal.main_arg1)) (m ((c.tc : Thread Cert.KernelIdeal.nD Cert.KernelIdeal.τ).loc Cert.KernelIdeal.main_arg2))) ?_
  refine (propagation_eq (launchContents m' c) (fun b => m (c, b)) hag.1 hag.2.2.2).trans ?_
  exact (eq_of_heq (Cert.KernelIdeal.RowValue.V_congr m c (rfl : Pipeline.arrRef Cert.KernelIdeal.spec0 0 = Cert.KernelIdeal.main_v55))).symm

end Cert.Proof.Bridge

end
-- ==== Proof.lean ====
/-
  A sparse graph convolution's classifier, kernel against reference, over the extended reals.

  Both programs propagate the node features x (100000 × 128) over the graph's 600000 edges and the self loops,
  twice, with the symmetric degree normalisation, by the same host operations; call the result h. The reference
  then computes  log_softmax (h · weightᵀ + bias)  along each row with a host matrix product. The kernel program
  hands h, the transposed weights and the bias row to a pallas_call over 20 blocks of 5000 rows whose body rounds
  both matmul operands to bf16, multiplies into a zero accumulator, adds the bias and takes the same log-softmax.
  At the ideal values a change of float format is the identity and a sum does not depend on its order, so both
  end at the one function `G` of (h, weight, bias) (Proof/Spec.lean): the kernel block by block (Proof/Payload.lean,
  Proof/KernelArray.lean), the reference all at once (Proof/RefTail.lean), and h is the same array in both
  (Proof/Bridge.lean). No law used here needs the inputs finite: only that sums and maxima may be regrouped and
  that −∞ is neutral for the maximum. The ideal pass rewrote nothing, so `preserves` asks for nothing.
-/
import proofs.«123037_j63677185130716_1_alg».proof.Defs
import proofs.«123037_j63677185130716_1_alg».proof.Proof.Gen.Kernel
import proofs.«123037_j63677185130716_1_alg».proof.Proof.Gen.Kernel.Skeleton
import proofs.«123037_j63677185130716_1_alg».proof.Proof.Gen.Kernel.Launch
import proofs.«123037_j63677185130716_1_alg».proof.Proof.Gen.Kernel.Points
import proofs.«123037_j63677185130716_1_alg».proof.Proof.Gen.Kernel.Frame
import proofs.«123037_j63677185130716_1_alg».proof.Proof.Gen.KernelIdeal
import proofs.«123037_j63677185130716_1_alg».proof.Proof.Gen.KernelIdeal.Skeleton
import proofs.«123037_j63677185130716_1_alg».proof.Proof.Gen.KernelIdeal.Launch
import proofs.«123037_j63677185130716_1_alg».proof.Proof.Gen.KernelIdeal.Points
import proofs.«123037_j63677185130716_1_alg».proof.Proof.Gen.KernelIdeal.Frame
import proofs.«123037_j63677185130716_1_alg».proof.Proof.Gen.ReferenceIdeal
import proofs.«123037_j63677185130716_1_alg».proof.Proof.Gen.Pre_finite_inputs
import proofs.«123037_j63677185130716_1_alg».proof.Proof.Gen.KernelIdeal.Value
import proofs.«123037_j63677185130716_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments as they were. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote no operation of the kernel program. -/
theorem preserves : Cert.preserves_Kernel_KernelIdeal := trivial

/-- From memories that agree on the four arguments both programs run, and both end with the result array
    `G` of (the propagated features, the weights, the bias). -/
theorem algebraic : Cert.algebraic_KernelIdeal_ReferenceIdeal := by
  intro m ρ m' ρ' _ hagree
  refine ⟨fun c => Cert.KernelIdeal.RowValue.result m c, Cert.KernelIdeal.RowValue.run m ρ, ?_⟩
  refine (θ_run Cert.ReferenceIdeal.defs _ _).mono (fun _ h c => ⟨(h c).1.trans ?_, (h c).2⟩)
    (Cert.ReferenceIdeal.HandRun.run (F := Ideal) m' ρ')
  exact Cert.Proof.Bridge.ref_result m m' c (hagree c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
